-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192x4096 .f32) (main_arg2 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_c_2 : IVec S_ 32 := constantI S_ 32 4095#32
  let main_v9 : IVec S8192 32 := broadcastInDim S8192 ![] bcast_S_S8192 main_c_2
  let main_v10 : IVec S8192 1 := cmpi .sle main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  main_v12
-- ==== Kernel.lean ====
abbrev S8192x4096 : Shape := ⟨2, ![8192, 4096]⟩
abbrev S8192 : Shape := ⟨1, ![8192]⟩
abbrev S8192x1 : Shape := ⟨2, ![8192, 1]⟩
abbrev S16x128 : Shape := ⟨2, ![16, 128]⟩
abbrev S256x1 : Shape := ⟨2, ![256, 1]⟩
abbrev S256x4096 : Shape := ⟨2, ![256, 4096]⟩
abbrev S8x128 : Shape := ⟨2, ![8, 128]⟩
abbrev S256 : Shape := ⟨1, ![256]⟩
abbrev S1 : Shape := ⟨1, ![1]⟩
abbrev S1x1 : Shape := ⟨2, ![1, 1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S8192x1, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S8x128, .f32⟩
  | .local _ .vmem, ⟨7, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  inb_S8x128_S8x128_0_0 : ∀ a, (![0, 0] : Fin 2 → Nat) a + S8x128.size a ≤ S8x128.size a
  h_S8x128 : 0 < S8x128.numel
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  rotates_S256x4096_d1 : S256x4096.Rotates 1 none
  iota_S256x4096_d1_w32 : S256x4096.Iotas .tc 32 [1]
  broadcasts_S256x1_S256x4096 : S256x1.Broadcasts S256x4096
  natLt_1_32 : 1 < 32
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .i32 = 32 ∨ (Rect.block (s := S8192x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S4095 : Shape := ⟨1, ![4095]⟩
abbrev S1x4095 : Shape := ⟨2, ![1, 4095]⟩
abbrev S8192x1 : Shape := ⟨2, ![8192, 1]⟩
abbrev S8192x4095 : Shape := ⟨2, ![8192, 4095]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S4095, .i32⟩
  | .hbm, ⟨4, _⟩ => ⟨S1x4095, .i32⟩
  | .hbm, ⟨5, _⟩ => ⟨S8192x1, .i32⟩
  | .hbm, ⟨6, _⟩ => ⟨S8192x4095, .i32⟩
  | .hbm, ⟨7, _⟩ => ⟨S8192x4095, .i32⟩
  | .hbm, ⟨8, _⟩ => ⟨S8192x4095, .i1⟩
  | .hbm, ⟨9, _⟩ => ⟨S8192x4095, .f32⟩
  | .hbm, ⟨10, _⟩ => ⟨S8192x4095, .f32⟩
  | .hbm, ⟨11, _⟩ => ⟨S8192x4095, .f32⟩
  | .hbm, ⟨12, _⟩ => ⟨S8192x4095, .f32⟩
  | .hbm, ⟨13, _⟩ => ⟨S_, .f32⟩
  | .hbm, ⟨14, _⟩ => ⟨S8192x4095, .f32⟩
  | .hbm, ⟨15, _⟩ => ⟨S8192x4095, .f32⟩
  | .hbm, ⟨16, _⟩ => ⟨S8192x4095, .f32⟩
  | .hbm, ⟨17, _⟩ => ⟨S8192x4095, .f32⟩
  | .hbm, ⟨18, _⟩ => ⟨S8192x4095, .f32⟩
  | .hbm, ⟨19, _⟩ => ⟨S_, .f32⟩
  | .hbm, ⟨20, _⟩ => ⟨S8192x4095, .f32⟩
  | .hbm, ⟨21, _⟩ => ⟨S8192x4095, .f32⟩
  | .hbm, ⟨22, _⟩ => ⟨S8192x4095, .f32⟩
  | .hbm, ⟨23, _⟩ => ⟨S_, .f32⟩
  | .hbm, ⟨24, _⟩ => ⟨S8192, .f32⟩
  | .hbm, ⟨25, _⟩ => ⟨S8192x4095, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S4095_S1x4095_1 : S4095.BroadcastsInDim S1x4095 (![1] : Fin 1 → Fin S1x4095.rank)
  bcast_S8192_S8192x1_0 : S8192.BroadcastsInDim S8192x1 (![0] : Fin 1 → Fin S8192x1.rank)
  bcast_S1x4095_S8192x4095_0_1 : S1x4095.BroadcastsInDim S8192x4095 (![0, 1] : Fin 2 → Fin S8192x4095.rank)
  bcast_S8192x1_S8192x4095_0_1 : S8192x1.BroadcastsInDim S8192x4095 (![0, 1] : Fin 2 → Fin S8192x4095.rank)
  slices_S8192x4096_S8192x4095_0_0 : S8192x4096.Slices ![0, 0] S8192x4095
  slices_S8192x4096_S8192x4095_0_1 : S8192x4096.Slices ![0, 1] S8192x4095
  bcast_S_S8192x4095 : S_.BroadcastsInDim S8192x4095 (![] : Fin 0 → Fin S8192x4095.rank)
  reducesTo_S8192x4095_S8192_d1 : S8192x4095.ReducesTo [1] S8192
  h_S_ : 0 < S_.numel
  reducesTo_S8192_S_d0 : S8192.ReducesTo [0] S_

variable [Facts₀]

class Facts : Prop extends Facts₀ where

variable [Facts]
-- ==== Proof.PreFacts.lean ====
/-
  The printed precondition, decoded into plain facts.

  The precondition is the rank-0 `i1` value
      all (|x0| < +inf)  AND  all (|x1| < +inf)  AND  all (x2 <= 4095, signed).
  At the ideal instance a float is an extended real, `|x|` is `max x (-x)`, and the pattern
  `0x7F800000` is `⊤`.  So "the precondition is 1" says: every entry of `x0` and of `x1` is a real
  number (neither `⊥` nor `⊤`), and every entry of `x2` is at most 4095 as a signed integer.
-/
import proofs.«155158_j4355096838220_2_alg».proof.Pre_finite_inputs
import Idealize.ShloMosaic.PureOps.Ideal
import Idealize.ShloMosaic.Lib.ReduceAll
import Idealize.ShloMosaic.Lib.ValueIdx

namespace Cert.PreFacts

open Idealize.ShloMosaic

/-- An extended real whose absolute value `max x (-x)` is below `⊤` is a real number: at `⊥` the absolute
    value is `max ⊥ ⊤ = ⊤`, at `⊤` it is `max ⊤ ⊥ = ⊤`, and neither is below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` denotes `+∞`. -/
theorem ofBits_inf : Ideal.ofBits .f32 0x7F800000#32 = (⊤ : EReal) := by
  simp [Ideal.ofBits, Ideal.ieee]

/-- One element of the float test: `|x| < +inf` (ordered less-than, as an `i1` word) being 1 makes `x` a real. -/
theorem real_of_cmpf_abs (x : Ideal .f32)
    (h : FloatOps.cmpf .olt (FloatOps.hostAbsf x) (Ideal.ofBits .f32 0x7F800000#32) = 1#1) :
    ∃ r : ℝ, x = (r : EReal) := by
  rw [ofBits_inf] at h
  apply real_of_abs_lt_top
  by_contra hn
  have : FloatOps.cmpf .olt (FloatOps.hostAbsf x) (⊤ : Ideal .f32) = 0#1 := by
    show BitVec.ofBool (decide (max x (-x) < (⊤ : EReal))) = 0#1
    rw [decide_eq_false hn]; rfl
  rw [this] at h
  exact absurd h (by decide)

/-- One element of the integer test: `x ≤ 4095` signed (as an `i1` word) being 1 is the inequality of the signed values. -/
theorem toInt_le_of_cmpi (x : BitVec 32) (h : IntOp.cmpi .sle x 4095#32 = 1#1) : x.toInt ≤ 4095 := by
  have := IntOp.cmpi_sle.1 h
  have e : (4095#32 : BitVec 32).toInt = 4095 := by decide
  rwa [e] at this

/-- The rank-0 result shape has one index. -/
instance subsingleton_idx0 : Subsingleton Cert.Pre_finite_inputs.S_.Idx := ⟨fun _ _ => funext fun d => d.elim0⟩

/-- The precondition decoded: all entries of `x0` and `x1` are reals, all entries of `x2` are at most 4095 (signed). -/
theorem decode [Cert.Pre_finite_inputs.Facts]
    (x0 x1 : FVec Ideal Cert.Pre_finite_inputs.S8192x4096 .f32) (x2 : IVec Cert.Pre_finite_inputs.S8192 32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, (x2 i).toInt ≤ 4095) := by
  -- the rank-0 result at its one index
  have h0 := congrFun h ValueIdx.ix0
  dsimp only [Cert.Pre_finite_inputs.fn] at h0
  -- the two conjunctions: all three reductions are 1
  obtain ⟨h01, hC⟩ := IntOp.andi_eq_one.1 h0
  obtain ⟨hA, hB⟩ := IntOp.andi_eq_one.1 h01
  refine ⟨fun i => ?_, fun i => ?_, fun i => ?_⟩
  · -- every element of the first comparison array is 1
    have e := Host.reduce_andi_all _ _ _ _ _ hA i
    exact real_of_cmpf_abs (x0 i) e
  · have e := Host.reduce_andi_all _ _ _ _ _ hB i
    exact real_of_cmpf_abs (x1 i) e
  · have e := Host.reduce_andi_all _ _ _ _ _ hC i
    exact toInt_le_of_cmpi (x2 i) e

end Cert.PreFacts
-- ==== Proof.Cases.lean ====
/-
  What the body leaves in the accumulator block, case by case, and the accumulation over the grid.

  The grid has 32 points, 16 per core half; the output block of a point is the 8 × 128 block indexed by the point's
  first coordinate, so it stays in place over 16 consecutive points and is written back after the 16th. At the first
  point of each run of 16 the body first stores the zero block, so it leaves `zero + (the block's contribution)`; at
  the other points it leaves `(what the point before left) + (the block's contribution)`. Both are the body's one
  accumulate payload, applied to the zero block or to the carried block. So the block's contents after point `n`
  are the chain `acc n` defined below, by induction on the point.
-/
import proofs.«155158_j4355096838220_2_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At a point that continues a run, the body leaves the accumulate payload of the three input blocks and the
    carried block `xo`. -/
theorem out_B (c : Dev nD) (i : grid0.Coords) (a2 : Memref sig .tc .vmem S256x1 .i32) (h2 : a2.IsWhole)
    (a3 : Memref sig .tc .vmem S256x4096 .f32) (h3 : a3.IsWhole) (a4 : Memref sig .tc .vmem S256x4096 .f32) (h4 : a4.IsWhole)
    (a5 : Memref sig .tc .vmem S8x128 .f32) (h5 : a5.IsWhole) (hc : ¬cond0_0 i)
    (x0 : Vec F S256x1 .i32) (x1 x2 : Vec F S256x4096 .f32) (xo : Vec F S8x128 .f32) :
    out0_B_3 c i a2 h2 a3 h3 a4 h4 a5 h5 hc x0 x1 x2 xo = k0_pay2 x1 x2 x0 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz]
  simp only [View.readAt_eq_ld, h2.read_unread, h3.read_unread, h4.read_unread, h5.read_unread,
    View.ld_unit_zero (S := S256x1) hz, View.ld_unit_zero (S := S256x4096) hz, View.ld_unit_zero (S := S8x128) hz]

/-- At the first point of a run the body stores the zero block, reads it back, and leaves the accumulate payload of
    the three input blocks and the zero block. -/
theorem out_A (c : Dev nD) (i : grid0.Coords) (a2 : Memref sig .tc .vmem S256x1 .i32) (h2 : a2.IsWhole)
    (a3 : Memref sig .tc .vmem S256x4096 .f32) (h3 : a3.IsWhole) (a4 : Memref sig .tc .vmem S256x4096 .f32) (h4 : a4.IsWhole)
    (a5 : Memref sig .tc .vmem S8x128 .f32) (h5 : a5.IsWhole) (hc : cond0_0 i)
    (x0 : Vec F S256x1 .i32) (x1 x2 : Vec F S256x4096 .f32) :
    out0_A_3 c i a2 h2 a3 h3 a4 h4 a5 h5 hc x0 x1 x2 = k0_pay2 x1 x2 x0 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread,
    View.ld_unit_zero (S := S256x1) hz, View.ld_unit_zero (S := S256x4096) hz, View.ld_unit_zero (S := S8x128) hz]

/-- The accumulator block after point `n`: restarted from the zero block at the first point of each run of 16,
    otherwise continued from the point before. -/
def acc (c : Dev nD) : (n : ℕ) → n < cfg0.N → Vec F S8x128 .f32
  | 0, h => k0_pay2 (iblk m c 1 ⟨0, h⟩) (iblk m c 2 ⟨0, h⟩) (iblk m c 0 ⟨0, h⟩) (k0_pay1 (F := F))
  | n + 1, h =>
    if (n + 1) % 16 = 0 then
      k0_pay2 (iblk m c 1 ⟨n + 1, h⟩) (iblk m c 2 ⟨n + 1, h⟩) (iblk m c 0 ⟨n + 1, h⟩) (k0_pay1 (F := F))
    else
      k0_pay2 (iblk m c 1 ⟨n + 1, h⟩) (iblk m c 2 ⟨n + 1, h⟩) (iblk m c 0 ⟨n + 1, h⟩) (acc c n (Nat.lt_of_succ_lt h))

/-- What the output's staging buffer holds after point `n` is that chain: by induction on the point. -/
theorem outsAt_eq (c : Dev nD) : ∀ (n : ℕ) (h : n < cfg0.N), outsAt0 m c n h = acc m c n h
  | 0, h => (outsAt0_A m c ⟨0, h⟩ rfl).trans (out_A ..)
  | n + 1, h => by
    by_cases h0 : (n + 1) % 16 = 0
    · rw [outsAt0_A m c ⟨n + 1, h⟩ h0, out_A]
      unfold acc
      rw [if_pos h0]
    · rw [outsAt0_B m c ⟨n + 1, h⟩ h0, out_B]
      unfold acc
      rw [if_neg h0]
      show k0_pay2 _ _ _ (outsAt0 m c n _) = k0_pay2 _ _ _ (acc m c n _)
      rw [outsAt_eq c n]

/-- The same chain on every natural number (the zero block past the grid), so that it can be cited without a bound. -/
def accN (c : Dev nD) (n : ℕ) : Vec F S8x128 .f32 := if h : n < cfg0.N then acc m c n h else k0_pay1 (F := F)

theorem accN_of_lt (c : Dev nD) (n : ℕ) (h : n < cfg0.N) : accN m c n = acc m c n h := dif_pos h

end Cert.KernelIdeal.Acc

end
-- ==== Proof.Final.lean ====
/-
  The output array after the run, and the value the program returns.

  The output array has 16 rows of 128 lanes, two blocks of 8 rows, one per core half. Block `q` is the accumulator
  block of the points `16 q … 16 q + 15` and is written back once, after point `16 q + 15`; so after the run the array
  holds, in rows `8 q … 8 q + 7`, the accumulator chain after point `16 q + 15`. The host then takes the entries
  (0, 0) and (8, 0) — one from each block —, adds them and divides by 8192.
-/
import proofs.«155158_j4355096838220_2_alg».proof.Proof.Cases
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Out

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Acc

variable {F : FTy → Type} [FloatOps F]
variable (m : (ℓ : Loc nD τ sig) → Buf (Elt F) ℓ) (ρ : Dev nD → PrngReg)

/-- The output window's block index at point `t`: its core half, and lane block 0 — decided over the grid. -/
theorem idx3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- The output array after the run: row `i` lies in block `i / 8`, which holds the chain after point `16 (i / 8) + 15`. -/
def res (c : Dev nD) : Buf (Elt F) ((c : Thread nD τ).loc main_v1) := fun i =>
  accN m c (16 * ((i 0).val / 8) + 15) (ix2 ⟨(i 0).val % 8, Nat.mod_lt _ (by decide)⟩ ⟨(i 1).val, idx2_lt1 i⟩)

/-- A write-back happens after the last point of a run of 16, and writes that run's block of `res`. -/
theorem flushed_eq (c : Dev nD) (t : Fin cfg0.N) (hf : (cfg0.win 3).flush t = true) :
    (dats m 0 c).flushed 3 t = ((cfg0.win 3).blk t).view.read (Elt F) (res m c) := by
  have hN : t.val < 32 := lt_of_lt_of_eq t.isLt (show cfg0.N = 32 from N_0)
  have h15 : t.val % 16 = 15 := (flush0_3 t).mp hf
  obtain ⟨e0, e1⟩ := idx3 t
  show (cfg0.win 3).cut (grid0.coords t) ((dats m 0 c).after 3 t) = _
  rw [after0_3, outsAt_eq, ← accN_of_lt]
  funext y
  show accN m c t.val y = res m c (((cfg0.win 3).blk t).view.emb y)
  have hy0 : (y 0).val < 8 := (y 0).isLt
  have hy1 : (y 1).val < 128 := (y 1).isLt
  have c0 : ((((cfg0.win 3).blk t).view.emb y) 0).val = win0_3.index t (0 : Fin 2) * 8 + 1 * (y 0).val := rfl
  have c1 : ((((cfg0.win 3).blk t).view.emb y) 1).val = win0_3.index t (1 : Fin 2) * 128 + 1 * (y 1).val := rfl
  have hn : 16 * (((((cfg0.win 3).blk t).view.emb y) 0).val / 8) + 15 = t.val := by rw [c0, e0]; omega
  unfold res
  rw [hn]
  refine congrArg (accN m c t.val) (funext fun a => Fin.ext ?_)
  match a with
  | ⟨0, _⟩ => show (y 0).val = ((((cfg0.win 3).blk t).view.emb y) 0).val % 8; rw [c0, e0]; omega
  | ⟨1, _⟩ => show (y 1).val = ((((cfg0.win 3).blk t).view.emb y) 1).val; rw [c1, e1]; omega

/-- An index of the array is in point `t`'s block iff each coordinate is in the block's range on its axis. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v1).slice (win0_3.rect t)).set ↔ _
  rw [View.set_slice_whole, Rect.mem_set_unit]
  exact Iff.rfl

/-- Every row is covered by the write-back of its block: the array after the run is `res`. -/
theorem final (c : Dev nD) : (dats m 0 c).arrAt 3 cfg0.N = res m c :=
  (dats m 0 c).arrAt_eq_of_cover 3 (res m c) (flushed_eq m c) fun i => by
    have hi0 : (i 0).val < 16 := (i 0).isLt
    have hi1 : (i 1).val < 128 := (i 1).isLt
    have hN : cfg0.N = 32 := N_0
    have hlt : 16 * ((i 0).val / 8) + 15 < cfg0.N := by rw [hN]; omega
    obtain ⟨e0, e1⟩ := idx3 ⟨16 * ((i 0).val / 8) + 15, hlt⟩
    refine ⟨⟨16 * ((i 0).val / 8) + 15, hlt⟩, (flush0_3 _).mpr (by show (16 * ((i 0).val / 8) + 15) % 16 = 15; omega), ?_⟩
    rw [mem_blk3]
    intro a
    match a with
    | ⟨0, _⟩ =>
      show win0_3.index ⟨16 * ((i 0).val / 8) + 15, hlt⟩ (0 : Fin 2) * 8 ≤ (i 0).val ∧ (i 0).val < win0_3.index ⟨16 * ((i 0).val / 8) + 15, hlt⟩ (0 : Fin 2) * 8 + 8
      rw [e0]; dsimp only; omega
    | ⟨1, _⟩ =>
      show win0_3.index ⟨16 * ((i 0).val / 8) + 15, hlt⟩ (1 : Fin 2) * 128 ≤ (i 1).val ∧ (i 1).val < win0_3.index ⟨16 * ((i 0).val / 8) + 15, hlt⟩ (1 : Fin 2) * 128 + 128
      rw [e1]; omega

/-- What the host's last operations make of an output array `A`: entry (0, 0) plus entry (8, 0), divided by 8192. -/
def tail (A : S16x128.Idx → Elt F .f32) : S_.Idx → Elt F .f32 :=
  Host.divf (F := F)
    (addf (shapeCast S_ (extractStridedSlice S1x1 ![0, 0] A slices_S16x128_S1x1_0_0) shapeCasts_S1x1_S_)
      (shapeCast S_ (extractStridedSlice S1x1 ![8, 0] A slices_S16x128_S1x1_8_0) shapeCasts_S1x1_S_))
    (constant (F := F) S_ .f32 0x46000000#32)

/-- The program's result buffer after the run is that tail of `res`. -/
theorem tail_eq (c : Dev nD) :
    Pipeline.afterTail₀ cfgs (dats m) 0 (V0 m) [hostOps1] c main_v7 = tail (res m c) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v1)
      = res m c := (Pipeline.withArrays_arr spec0 launch0.win.arr_inj c _ _ 3).trans (final m c)
  rw [e]
  rfl

/-- THE RUN, READ: every weakly fair execution of the program terminates with the result buffer at the tail of `res`
    and the three argument arrays unchanged. -/
theorem run : θ_run defs (onTc (τ := τ) (main (F := F))) ⟨m, fun _ => 0, ρ⟩ fun r => ∀ c : Dev nD,
      r.2.mem ((c : Thread nD τ).loc main_v7) = tail (res m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v7 (Pipeline.mem_restRefs_of main_v7 (by decide) (by decide))).trans (tail_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Out

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The body's arithmetic read at an index, at the ideal instance.

  One grid point holds 256 rows of 4096 samples of the prediction `x1` and of the target `x2`, and one fracture
  index per row (`x0`, a column of 256 integers). With `d = x1 - x2`, the body forms on every lane `k` the
  trapezoid `½ · (d k + d (k+1))` — the neighbour taken CYCLICALLY, by a rotation of the 4096 lanes by 4095 —,
  multiplies it by the lane mask `[k < index]` (a signed comparison, read as the real number 0 or 1), sums each
  row over its 4096 lanes, squares the row sums, sums the 256 squares, and adds that one number to every entry
  of the 8 × 128 accumulator block it was handed. The lemmas below read each non-pointwise step at an index given
  by coordinates; `accumulate_apply` composes them.
-/
import proofs.«155158_j4355096838220_2_alg».proof.Proof.Gen.KernelIdeal.Skeleton
import proofs.«155158_j4355096838220_2_alg».proof.Proof.LibKeepdims
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The lane a rotation of 4096 lanes by 4095 reads at lane `k`: the next lane, the last lane wrapping to the first. -/
def nextLane (k : Fin 4096) : Fin 4096 := ⟨(k.val + 4096 - 4095 % 4096) % 4096, Nat.mod_lt _ (by decide)⟩

/-- Before the last lane the next lane is the successor. -/
theorem nextLane_castSucc (k : Fin 4095) : nextLane k.castSucc = k.succ := by
  apply Fin.ext
  have := k.isLt
  simp only [nextLane, Fin.val_castSucc, Fin.val_succ]
  omega

/-- The lane mask of a row whose fracture index is the word `n`: 1 on the lanes `k < n` (signed), else 0, as the
    body computes it — the comparison's bit widened to a word and read as a signed integer. -/
def lane (n : BitVec 32) (k : Fin 4096) : EReal :=
  ((((IntOp.cmpi .slt (BitVec.ofNat 32 k.val) n).setWidth 32).toInt : ℝ) : EReal)

/-- The half the trapezoid rule multiplies by, as the body's literal. -/
abbrev half : EReal := Ideal.ofBits .f32 0x3F000000#32

/-- A rotation of the lanes by 4095 reads lane `k`'s cyclic successor. -/
theorem rotate_apply (d : FVec Ideal S256x4096 .f32) (h : S256x4096.Rotates 1 none) (r : Fin 256) (k : Fin 4096) :
    dynamicRotate 1 4095#32 none d h (ix2 r k) = d (ix2 r (nextLane k)) := by
  unfold dynamicRotate
  refine congrArg d (funext fun b => ?_)
  match b with
  | ⟨0, _⟩ => rfl
  | ⟨1, _⟩ => rfl

/-- The lane counter at `(r, k)` is `k`. -/
theorem iota_apply (h : S256x4096.Iotas .tc 32 [1]) (r : Fin 256) (k : Fin 4096) :
    iota .tc S256x4096 32 [1] h (ix2 r k) = BitVec.ofNat 32 k.val := by
  unfold iota
  show BitVec.ofNat 32 (0 * 4096 + k.val) = _
  rw [Nat.zero_mul, Nat.zero_add]

/-- A sum over the lanes of a 256 × 4096 block, at row `r`. -/
theorem rowReduce_apply (v : FVec Ideal S256x4096 .f32) (h : S256x4096.Reduces [1] S256) (hφ : FKind.Formats .f32)
    (hacc : (0x00000000#32 : BitVec 32) = FKind.add.neutral .f32 hφ) (r : Fin 256) :
    multiReduction .add [1] S256 v 0x00000000#32 h hφ hacc (ix1 r) = ∑ k : Fin 4096, v (ix2 r k) :=
  (Ideal.multiReduction_add_single v 0x00000000#32 h hφ hacc (ix1 r)).trans
    (Finset.sum_congr rfl fun k _ => congrArg v (funext fun a => Fin.ext (by
      match a with
      | ⟨0, _⟩ => rfl
      | ⟨1, _⟩ => rfl)))

/-- A sum over the 256 rows of a column, at its one entry. -/
theorem colReduce_apply (v : FVec Ideal S256x1 .f32) (h : S256x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 256, v (ix2 r (0 : Fin 1)) :=
  (Ideal.multiReduction_add_single v 0x00000000#32 h hφ hacc (ix1 u)).trans
    (Finset.sum_congr rfl fun k _ => congrArg v (funext fun a => Fin.ext (by
      have hu : u.val = 0 := by omega
      match a with
      | ⟨0, _⟩ => rfl
      | ⟨1, _⟩ => exact hu)))

/-- A 1 × 1 value broadcast to the 8 × 128 block reads its one entry everywhere. -/
theorem splat_apply (v : FVec Ideal S1x1 .f32) (h : S1x1.Broadcasts S8x128) (j : S8x128.Idx) :
    broadcastTo S8x128 v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- The masked trapezoid of the difference `d = x1 - x2` at row `r`, lane `k`: `½ · (d k + d (k+1 cyclic))` times the
    row's lane mask. -/
def term (x1 x2 : FVec Ideal S256x4096 .f32) (x0 : IVec S256x1 32) (r : Fin 256) (k : Fin 4096) : EReal :=
  (half * ((x1 (ix2 r k) - x2 (ix2 r k)) + (x1 (ix2 r (nextLane k)) - x2 (ix2 r (nextLane k)))))
    * lane (x0 (ix2 r (0 : Fin 1))) k

/-- A row's masked trapezoid sum, over all 4096 lanes. -/
def rowSum (x1 x2 : FVec Ideal S256x4096 .f32) (x0 : IVec S256x1 32) (r : Fin 256) : EReal :=
  ∑ k : Fin 4096, term x1 x2 x0 r k

/-- The block's contribution: the sum over its 256 rows of the squared row sums. -/
def blockSum (x1 x2 : FVec Ideal S256x4096 .f32) (x0 : IVec S256x1 32) : EReal :=
  ∑ r : Fin 256, rowSum x1 x2 x0 r * rowSum x1 x2 x0 r

/-- The body's elementwise part — half the sum of the difference and its rotation, times the mask — at `(r, k)`. -/
theorem masked_apply (x1 x2 : FVec Ideal S256x4096 .f32) (x0 : IVec S256x1 32) (hrot : S256x4096.Rotates 1 none)
    (hiota : S256x4096.Iotas .tc 32 [1]) (hb : S256x1.Broadcasts S256x4096) (hlt : 1 < 32) (r : Fin 256) (k : Fin 4096) :
    mulf (mulf (broadcast S256x4096 (Scalar.ofBits (F := Ideal) .f32 0x3F000000#32))
          (addf (subf x1 x2) (dynamicRotate 1 4095#32 none (subf x1 x2) hrot)))
        (sitofp .f32 (extui 32 (cmpi .slt (iota .tc S256x4096 32 [1] hiota) (broadcastTo S256x4096 x0 hb)) hlt)) (ix2 r k)
      = term x1 x2 x0 r k := by
  show (half * ((x1 (ix2 r k) - x2 (ix2 r k)) + dynamicRotate 1 4095#32 none (subf x1 x2) hrot (ix2 r k)))
      * ((((IntOp.cmpi .slt (iota .tc S256x4096 32 [1] hiota (ix2 r k)) (broadcastTo S256x4096 x0 hb (ix2 r k))).setWidth 32).toInt : ℝ) : EReal)
      = _
  rw [rotate_apply, iota_apply, Cert.Keepdims.broadcastTo_a1_ab_apply]
  rfl

/-- THE ACCUMULATE PAYLOAD at an index: the accumulator's entry plus the block's sum of squared row sums — one
    number, the same at every entry of the 8 × 128 block. -/
theorem accumulate_apply (x1 x2 : Vec Ideal S256x4096 .f32) (x0 : Vec Ideal S256x1 .i32) (acc : Vec Ideal S8x128 .f32)
    (j : S8x128.Idx) : k0_pay2 (F := Ideal) x1 x2 x0 acc j = acc j + blockSum x1 x2 x0 := by
  unfold k0_pay2
  dsimp only
  rw [shapeCast_self, shapeCast_self, shapeCast_self]
  show acc j + broadcastTo S8x128 _ _ j = _
  rw [splat_apply]
  refine congrArg (acc j + ·) ?_
  refine (Cert.Keepdims.shapeCast_a_a1_apply _ _ (0 : Fin 1) (0 : Fin 1)).trans ?_
  refine (colReduce_apply _ _ _ _ (0 : Fin 1)).trans ?_
  refine Finset.sum_congr rfl fun r _ => ?_
  show shapeCast S256x1 _ _ (ix2 r (0 : Fin 1)) * shapeCast S256x1 _ _ (ix2 r (0 : Fin 1)) = _
  rw [Cert.Keepdims.shapeCast_a_a1_apply]
  refine (congrArg₂ (· * ·) (rowReduce_apply _ _ _ _ r) (rowReduce_apply _ _ _ _ r)).trans ?_
  unfold rowSum
  exact congrArg₂ (· * ·) (Finset.sum_congr rfl fun k _ => masked_apply x1 x2 x0 _ _ _ _ r k)
    (Finset.sum_congr rfl fun k _ => masked_apply x1 x2 x0 _ _ _ _ r k)

end Cert.KernelIdeal.Pay

end
-- ==== Proof.Partial.lean ====
/-
  The accumulator chain evaluated at the ideal instance.

  At the ideal instance every entry of the accumulator block after point `n` is ONE number: the sum of the
  contributions of the blocks of the current run of 16 points, from the run's first point `16 (n / 16)` up to `n`
  (the zero block the run starts from is the extended real 0, and each point adds its block's contribution to every
  entry). By induction on the point.
-/
import proofs.«155158_j4355096838220_2_alg».proof.Proof.Cases
import proofs.«155158_j4355096838220_2_alg».proof.Proof.Payload

noncomputable section

namespace Cert.KernelIdeal.Part

open Idealize.ShloMosaic Idealize.ShloMosaic.TcCoe Idealize.ShloMosaic.ValueIdx Idealize.SL.Sem
open Cert.KernelIdeal Cert.KernelIdeal.Gen Cert.KernelIdeal.Acc

variable (m : (ℓ : Loc nD τ sig) → Buf (Elt Ideal) ℓ)

/-- The contribution of the block of point `s`: the sum over its 256 rows of the squared masked trapezoid sums
    (0 past the grid, so that it can be summed over ranges of natural numbers). -/
def contrib (c : Dev nD) (s : ℕ) : EReal :=
  if h : s < cfg0.N then Pay.blockSum (iblk m c 1 ⟨s, h⟩) (iblk m c 2 ⟨s, h⟩) (iblk m c 0 ⟨s, h⟩) else 0

theorem contrib_of_lt (c : Dev nD) (s : ℕ) (h : s < cfg0.N) :
    contrib m c s = Pay.blockSum (iblk m c 1 ⟨s, h⟩) (iblk m c 2 ⟨s, h⟩) (iblk m c 0 ⟨s, h⟩) := dif_pos h

/-- The zero block is the extended real 0 at every entry. -/
theorem zero_apply (j : S8x128.Idx) : k0_pay1 (F := Ideal) j = 0 := Ideal.ofBits_zero_f32

/-- Every entry of the accumulator block after point `n` is the sum of the contributions of the run's points up to `n`. -/
theorem acc_apply (c : Dev nD) : ∀ (n : ℕ) (h : n < cfg0.N) (j : S8x128.Idx),
    acc m c n h j = ∑ s ∈ Finset.range (n % 16 + 1), contrib m c (16 * (n / 16) + s)
  | 0, h, j => by
    unfold acc
    rw [Pay.accumulate_apply, zero_apply, zero_add]
    show _ = ∑ s ∈ Finset.range 1, contrib m c (16 * (0 / 16) + s)
    rw [Finset.sum_range_one, contrib_of_lt m c _ h]
  | n + 1, h, j => by
    by_cases h0 : (n + 1) % 16 = 0
    · unfold acc
      rw [if_pos h0, Pay.accumulate_apply, zero_apply, zero_add, h0]
      show _ = ∑ s ∈ Finset.range 1, contrib m c (16 * ((n + 1) / 16) + s)
      rw [Finset.sum_range_one, show 16 * ((n + 1) / 16) + 0 = n + 1 by omega, contrib_of_lt m c _ h]
    · unfold acc
      rw [if_neg h0, Pay.accumulate_apply, acc_apply c n (Nat.lt_of_succ_lt h) j]
      have e : ∑ s ∈ Finset.range ((n + 1) % 16 + 1), contrib m c (16 * ((n + 1) / 16) + s)
          = ∑ s ∈ Finset.range (n % 16 + 1), contrib m c (16 * (n / 16) + s) + contrib m c (n + 1) := by
        rw [show (n + 1) % 16 + 1 = (n % 16 + 1) + 1 by omega, show (n + 1) / 16 = n / 16 by omega,
          Finset.sum_range_succ (fun s => contrib m c (16 * (n / 16) + s)) (n % 16 + 1),
          show 16 * (n / 16) + (n % 16 + 1) = n + 1 by omega]
      rw [e, contrib_of_lt m c _ h]

end Cert.KernelIdeal.Part

end
-- ==== Proof.Blocks.lean ====
/-
  The kernel's input blocks read at coordinates.

  The grid has 32 points; at point `t` each of the three input windows has block index `(t, 0)`, so its block is
  rows `256 t … 256 t + 255` of its array (all 4096 lanes of `main_arg0` / `main_arg1`; the one column of the
  `[8192, 1]` array the host reshapes `main_arg2` into before the region).  A block's coordinate in the array is
  always  index × block size + the coordinate inside the block.
-/
import proofs.«155158_j4355096838220_2_alg».proof.Proof.Gen.KernelIdeal.Frame
import proofs.«155158_j4355096838220_2_alg».proof.Proof.LibKeepdims
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Blk

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- A row of block `t` is a row of the array: `256 t + r < 8192` for `t < 32`, `r < 256`. -/
theorem row_lt (t : Fin cfg0.N) (r : Fin 256) : 256 * t.val + r.val < 8192 := by
  have hN : t.val < 32 := lt_of_lt_of_eq t.isLt (show cfg0.N = 32 from N_0)
  have hr := r.isLt
  omega

/-- The block index of window 0 at point `t` is `(t, 0)`: decided over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The block index of window 1 at point `t` is `(t, 0)`. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The block index of window 2 at point `t` is `(t, 0)`. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Window 1's block at point `t`, at `(r, k)`, is `main_arg0` at `(256 t + r, k)`. -/
theorem iblk1_apply (c : Dev nD) (t : Fin cfg0.N) (r : Fin 256) (k : Fin 4096) :
    (iblk m c 1 t : Vec F S256x4096 .f32) (ix2 r k) = m ((c : Thread nD τ).loc main_arg0) (ix2 ⟨256 * t.val + r.val, row_lt t r⟩ k) := by
  unfold iblk
  rw [View.read_apply]
  show V m c main_arg0 _ = _
  rw [V_main_arg0]
  congr 1
  funext a
  apply Fin.ext
  match a with
  | ⟨0, _⟩ => show win0_1.index t 0 * 256 + 1 * r.val = 256 * t.val + r.val; rw [(idx1 t).1]; omega
  | ⟨1, _⟩ => show win0_1.index t 1 * 4096 + 1 * k.val = k.val; rw [(idx1 t).2]; omega

/-- Window 2's block at point `t`, at `(r, k)`, is `main_arg1` at `(256 t + r, k)`. -/
theorem iblk2_apply (c : Dev nD) (t : Fin cfg0.N) (r : Fin 256) (k : Fin 4096) :
    (iblk m c 2 t : Vec F S256x4096 .f32) (ix2 r k) = m ((c : Thread nD τ).loc main_arg1) (ix2 ⟨256 * t.val + r.val, row_lt t r⟩ k) := by
  unfold iblk
  rw [View.read_apply]
  show V m c main_arg1 _ = _
  rw [V_main_arg1]
  congr 1
  funext a
  apply Fin.ext
  match a with
  | ⟨0, _⟩ => show win0_2.index t 0 * 256 + 1 * r.val = 256 * t.val + r.val; rw [(idx2 t).1]; omega
  | ⟨1, _⟩ => show win0_2.index t 1 * 4096 + 1 * k.val = k.val; rw [(idx2 t).2]; omega

/-- Window 0's array when the region is entered: the one host operation before the region wrote it, the column
    `[8192, 1]` the vector `main_arg2` is reshaped into. -/
theorem V_main_v0 (c : Dev nD) : (V m c main_v0 : S8192x1.Idx → Elt F .i32)
    = shapeCast S8192x1 (m ((c : Thread nD τ).loc main_arg2)) shapeCasts_S8192_S8192x1 := by
  show StableHlo.after hostOps0 (fun b => m (c, b)) (Proc.devRef .tc main_v0) = _
  after_results
  rfl

/-- Window 0's block at point `t`, at `(r, 0)`, is `main_arg2` at `256 t + r`: the column's entry, which the
    reshape took from the vector at the same row. -/
theorem iblk0_apply (c : Dev nD) (t : Fin cfg0.N) (r : Fin 256) :
    (iblk m c 0 t : Vec F S256x1 .i32) (ix2 r (0 : Fin 1)) = m ((c : Thread nD τ).loc main_arg2) (ix1 ⟨256 * t.val + r.val, row_lt t r⟩) := by
  unfold iblk
  rw [View.read_apply]
  show V m c main_v0 _ = _
  rw [V_main_v0]
  refine Eq.trans (congrArg _ ?_) (Cert.Keepdims.shapeCast_a_a1_apply _ _ ⟨256 * t.val + r.val, row_lt t r⟩ (0 : Fin 1))
  funext a
  apply Fin.ext
  match a with
  | ⟨0, _⟩ => show win0_0.index t 0 * 256 + 1 * r.val = 256 * t.val + r.val; rw [(idx0 t).1]; omega
  | ⟨1, _⟩ => show win0_0.index t 1 * 1 + 1 * 0 = 0; rw [(idx0 t).2]

end Cert.KernelIdeal.Blk

end
-- ==== Proof.RowLaw.lean ====
import Idealize.ShloMosaic.PureOps.Ideal

/-!
# Finite sums of extended reals: the row law and block regrouping

Three facts about finite sums in `EReal`.

* `coe_sum`: the coercion `ℝ → EReal` commutes with finite sums.
* `row_law`: a trapezoid sum of a difference `p - q`, taken over `n + 1` lanes with a
  0/1 mask that vanishes on the last lane and a "next lane" map that agrees with the
  successor on the first `n` lanes, equals the difference of the two trapezoid sums over
  the first `n` lanes.  All data are finite reals, so the computation takes place in `ℝ`
  where subtraction and distributivity behave as usual.
* `sum_blocks`, `sum_range_blocks`: a sum over `A * B` indices can be regrouped as a sum
  over `A` blocks of `B` consecutive indices each.
-/

open scoped BigOperators

namespace Cert.RowLaw

/-- The coercion of reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- **The row law.**  With a mask `μ` that vanishes on the last lane and a next-lane map
that is the successor on every other lane, the masked trapezoid sum of `p - q` over all
`n + 1` lanes is the difference of the masked trapezoid sums of `p` and of `q` over the
first `n` lanes.  Every quantity is a finite real, so we pull the whole identity back to
`ℝ`: there the last lane contributes `(...) * 0 = 0`, and on the remaining lanes the
identity holds term by term. -/
theorem row_law (n : ℕ) (h : EReal) (hh : ∃ r : ℝ, h = (r : EReal))
    (p q : Fin (n + 1) → EReal) (hp : ∀ k, ∃ r : ℝ, p k = (r : EReal))
    (hq : ∀ k, ∃ r : ℝ, q k = (r : EReal))
    (μ : Fin (n + 1) → EReal) (hμ : ∀ k, μ k = 0 ∨ μ k = 1) (hlast : μ (Fin.last n) = 0)
    (nxt : Fin (n + 1) → Fin (n + 1)) (hnxt : ∀ k : Fin n, nxt k.castSucc = k.succ) :
    (0 : EReal) + ∑ k : Fin (n + 1), (h * ((p k - q k) + (p (nxt k) - q (nxt k)))) * μ k
      = ((0 : EReal) + ∑ k : Fin n, (h * (p k.castSucc + p k.succ)) * μ k.castSucc)
        - ((0 : EReal) + ∑ k : Fin n, (h * (q k.castSucc + q k.succ)) * μ k.castSucc) := by
  -- real witnesses for every atom
  obtain ⟨h', rfl⟩ := hh
  choose p' hp' using hp
  choose q' hq' using hq
  have hμr : ∀ k, ∃ r : ℝ, μ k = (r : EReal) := by
    intro k
    rcases hμ k with h0 | h1
    · exact ⟨0, by rw [h0, EReal.coe_zero]⟩
    · exact ⟨1, by rw [h1, EReal.coe_one]⟩
  choose μ' hμ' using hμr
  have hlast' : μ' (Fin.last n) = 0 := by
    have h0 := hμ' (Fin.last n)
    rw [hlast] at h0
    exact_mod_cast h0.symm
  -- the identity over the reals: split off the last lane, then compare term by term
  have key : (∑ k : Fin (n + 1), (h' * ((p' k - q' k) + (p' (nxt k) - q' (nxt k)))) * μ' k)
      = (∑ k : Fin n, (h' * (p' k.castSucc + p' k.succ)) * μ' k.castSucc)
        - (∑ k : Fin n, (h' * (q' k.castSucc + q' k.succ)) * μ' k.castSucc) := by
    rw [Fin.sum_univ_castSucc, hlast', mul_zero, add_zero, ← Finset.sum_sub_distrib]
    apply Finset.sum_congr rfl
    intro k _
    rw [hnxt k]
    ring
  -- rewrite every atom as a coercion and push the coercion outward
  simp only [hp', hq', hμ', zero_add]
  simp only [← EReal.coe_add, ← EReal.coe_sub, ← EReal.coe_mul, ← coe_sum]
  rw [key]

/-- Index arithmetic for the blocks: the `r`-th entry of the `s`-th block of length `B`
lies below `A * B`. -/
theorem blk_lt {A B : ℕ} (s : Fin A) (r : Fin B) : B * s.val + r.val < A * B := by
  have hs : s.val + 1 ≤ A := s.isLt
  have hr : r.val < B := r.isLt
  calc B * s.val + r.val < B * s.val + B := Nat.add_lt_add_left hr _
    _ = B * (s.val + 1) := by ring
    _ ≤ B * A := Nat.mul_le_mul_left _ hs
    _ = A * B := Nat.mul_comm _ _

/-- **Regrouping by blocks.**  A sum over `N = A * B` indices is the sum over the `A`
blocks of the sums over the `B` consecutive indices `B * s + r` of each block.  Only
commutativity and associativity of addition are used: the map `(s, r) ↦ B * s + r` is a
bijection from `Fin A × Fin B` onto `Fin (A * B)`. -/
theorem sum_blocks (A B N : ℕ) (hN : N = A * B) (g : Fin N → EReal) :
    ∑ j : Fin N, g j
      = ∑ s : Fin A, ∑ r : Fin B, g ⟨B * s.val + r.val, by rw [hN]; exact blk_lt s r⟩ := by
  subst hN
  rw [← (finProdFinEquiv (m := A) (n := B)).sum_comp g, Fintype.sum_prod_type]
  apply Finset.sum_congr rfl
  intro s _
  apply Finset.sum_congr rfl
  intro r _
  congr 1
  apply Fin.ext
  simp [finProdFinEquiv, Nat.add_comm]

/-- The same regrouping for sums over initial segments of `ℕ`, by induction on the number
of blocks: the last block is `range B` shifted by `B * A`. -/
theorem sum_range_blocks (A B : ℕ) (g : ℕ → EReal) :
    ∑ j ∈ Finset.range (A * B), g j
      = ∑ s ∈ Finset.range A, ∑ r ∈ Finset.range B, g (B * s + r) := by
  induction A with
  | zero => simp
  | succ A ih =>
    rw [Finset.sum_range_succ, ← ih, Nat.succ_mul, Finset.sum_range_add, Nat.mul_comm A B]

end Cert.RowLaw
-- ==== Proof.Mask.lean ====
/-
  The lane mask `[k < n]`: a signed 32-bit comparison of a lane number `k` with a row's index `n`, an `i1` word.
  One program reads the bit widened to a 32-bit word and converted as a signed integer, the other reads the bit as a
  natural number.  Both readings are the same extended real, which is 0 or 1; and at lane 4095 the mask is 0 as soon
  as `n ≤ 4095` (signed).
-/
import Idealize.ShloMosaic.PureOps.Ideal
import Idealize.ShloMosaic.Lib.Affine

namespace Cert.Mask

open Idealize.ShloMosaic

/-- The mask as the kernel body reads it: the comparison's bit widened to a word, read as a signed integer. -/
def laneS (n : BitVec 32) (k : ℕ) : EReal := ((((IntOp.cmpi .slt (BitVec.ofNat 32 k) n).setWidth 32).toInt : ℝ) : EReal)

/-- The mask as the reference reads it: the bit read as a natural number. -/
def laneU (n : BitVec 32) (k : ℕ) : EReal := (((IntOp.cmpi .slt (BitVec.ofNat 32 k) n).toNat : ℝ) : EReal)

/-- A one-bit word is 0 or 1. -/
theorem bit_cases : ∀ b : BitVec 1, b = 0#1 ∨ b = 1#1 := by decide

/-- A one-bit word zero-extended to 32 bits is nonnegative as a signed word: its signed value is the bit's number. -/
theorem toInt_setWidth_bit : ∀ b : BitVec 1, (b.setWidth 32).toInt = (b.toNat : ℤ) := by decide

/-- The two readings of the mask agree. -/
theorem laneS_eq_laneU (n : BitVec 32) (k : ℕ) : laneS n k = laneU n k := by
  unfold laneS laneU
  rw [toInt_setWidth_bit, Int.cast_natCast]

/-- The mask is 0 or 1. -/
theorem laneS_zero_or_one (n : BitVec 32) (k : ℕ) : laneS n k = 0 ∨ laneS n k = 1 := by
  rw [laneS_eq_laneU]
  unfold laneU
  rcases bit_cases (IntOp.cmpi .slt (BitVec.ofNat 32 k) n) with h | h <;> rw [h]
  · left; simp
  · right; simp

/-- At the last lane, 4095, the mask is 0 when `n ≤ 4095` signed: the comparison `4095 < n` fails. -/
theorem laneS_last (n : BitVec 32) (hn : n.toInt ≤ 4095) : laneS n 4095 = 0 := by
  have hb : IntOp.cmpi .slt (BitVec.ofNat 32 4095) n ≠ 1#1 := by
    intro h
    have hlt := IntOp.cmpi_slt.1 h
    have e : (BitVec.ofNat 32 4095).toInt = 4095 := by decide
    omega
  have h0 : IntOp.cmpi .slt (BitVec.ofNat 32 4095) n = 0#1 := by
    rcases bit_cases (IntOp.cmpi .slt (BitVec.ofNat 32 4095) n) with h | h
    · exact h
    · exact absurd h hb
  rw [laneS_eq_laneU]
  unfold laneU
  rw [h0]
  simp

end Cert.Mask
-- ==== Proof.RefRow.lean ====
import proofs.«155158_j4355096838220_2_alg».proof.Proof.Gen.ReferenceIdeal.Read
import Idealize.ShloMosaic.Lib.ValueIdx
import Idealize.ShloMosaic.PureOps.Ideal.Laws

/-!
# The reference read at an index

The reference program computes, from two arrays `X0, X1` of 8192 rows by 4096 lanes and an
index vector `X2` of 8192 entries, for each row `ρ` the masked trapezoid sums

  `trap X ρ = 0 + ∑ k < 4095, (1/2 · (X ρ k + X ρ (k+1))) · [k < X2 ρ]`

of both arrays (the mask is the signed comparison of the lane number with the row's index,
converted to a float 0 or 1), squares their difference, sums the squares over the rows
starting from 0, and divides by 8192.  Here each of these values is read at an index through
the generated read-at-an-index lemmas: every layout operation (slice, broadcast) reads its
operand at a composed index, which at literal coordinates is the expected pair of
coordinates.  The float literals are kept as the words the program prints.
-/

noncomputable section

open scoped BigOperators

namespace Cert.RefRow

open Idealize.ShloMosaic Idealize.ShloMosaic.ValueIdx Cert.ReferenceIdeal

/-- The program's constant one half, as the word it prints. -/
abbrev half : EReal := Ideal.ofBits .f32 0x3F000000#32

/-- one array's masked trapezoid sum over a row's first 4095 lanes, from the initial value 0 -/
def trap (X : FVec Ideal S8192x4096 .f32) (X2 : IVec S8192 32) (ρ : Fin 8192) : EReal :=
  Ideal.ofBits .f32 0x00000000#32
    + ∑ k : Fin 4095, (half * (X (ix2 ρ k.castSucc) + X (ix2 ρ k.succ)))
        * (((IntOp.cmpi .slt (BitVec.ofNat 32 k.val) (X2 (ix1 ρ))).toNat : ℝ) : EReal)

/-! ## The composed indices at literal coordinates

Lane `k` of row `ρ` of the sliced arrays `[0:8192, 0:4095]` and `[0:8192, 1:4096]` is lane `k`,
respectively `1 + k`, of row `ρ` of the full array; the row's index entry, broadcast along the
lanes, is read at `ρ`. -/

theorem idx_lo0 (ρ : Fin 8192) (k : Fin 4095) :
    Read.idx_main_v7 (Read.idx_main_v18 (ix1 ρ) k) = ix2 ρ k.castSucc := by
  funext a
  match a with
  | ⟨0, _⟩ => exact Fin.ext rfl
  | ⟨1, _⟩ => exact Fin.ext rfl

theorem idx_hi0 (ρ : Fin 8192) (k : Fin 4095) :
    Read.idx_main_v8 (Read.idx_main_v18 (ix1 ρ) k) = ix2 ρ k.succ := by
  funext a
  match a with
  | ⟨0, _⟩ => exact Fin.ext rfl
  | ⟨1, _⟩ => exact Fin.ext (Nat.add_comm 1 k.val)

theorem idx_row0 (ρ : Fin 8192) (k : Fin 4095) :
    Read.idx_main_v2 (Read.idx_main_v4 (Read.idx_main_v18 (ix1 ρ) k)) = ix1 ρ := by
  funext a
  match a with
  | ⟨0, _⟩ => exact Fin.ext rfl

theorem idx_lo1 (ρ : Fin 8192) (k : Fin 4095) :
    Read.idx_main_v12 (Read.idx_main_v20 (ix1 ρ) k) = ix2 ρ k.castSucc := by
  funext a
  match a with
  | ⟨0, _⟩ => exact Fin.ext rfl
  | ⟨1, _⟩ => exact Fin.ext rfl

theorem idx_hi1 (ρ : Fin 8192) (k : Fin 4095) :
    Read.idx_main_v13 (Read.idx_main_v20 (ix1 ρ) k) = ix2 ρ k.succ := by
  funext a
  match a with
  | ⟨0, _⟩ => exact Fin.ext rfl
  | ⟨1, _⟩ => exact Fin.ext (Nat.add_comm 1 k.val)

theorem idx_row1 (ρ : Fin 8192) (k : Fin 4095) :
    Read.idx_main_v2 (Read.idx_main_v4 (Read.idx_main_v20 (ix1 ρ) k)) = ix1 ρ := by
  funext a
  match a with
  | ⟨0, _⟩ => exact Fin.ext rfl

/-! ## The two row sums -/

/-- The first array's row sum (operation %18) at row `ρ` is its masked trapezoid sum: under
the sum, the product `(1/2 · (slice₀ + slice₁)) · mask` is read factor by factor at lane `k`;
the lane number is the iota at `k`, and at the ideal instance the float operations are the
extended reals' and the unsigned conversion of the comparison bit is its value 0 or 1. -/
theorem v18_apply (X0 : FVec Ideal S8192x4096 .f32) (X2 : IVec S8192 32) (ρ : Fin 8192) :
    Read.val_main_v18 (F := Ideal) X0 X2 (ix1 ρ) = trap X0 X2 ρ := by
  rw [Read.val_main_v18_apply]
  unfold trap
  refine congrArg₂ (· + ·) rfl (Finset.sum_congr rfl fun k _ => ?_)
  rw [Read.val_main_v17_apply, Read.val_main_v11_apply, Read.val_main_v10_apply, Read.val_main_cst_apply,
    Read.val_main_v9_apply, Read.val_main_v7_apply, Read.val_main_v8_apply, Read.val_main_v6_apply,
    Read.val_main_v5_apply, Read.val_main_v3_apply, Read.val_main_v1_apply, Read.val_main_v0_apply,
    Read.val_main_v4_apply, Read.val_main_v2_apply, idx_lo0, idx_hi0, idx_row0]
  rfl

/-- The second array's row sum (operation %20) at row `ρ`, in the same way. -/
theorem v20_apply (X1 : FVec Ideal S8192x4096 .f32) (X2 : IVec S8192 32) (ρ : Fin 8192) :
    Read.val_main_v20 (F := Ideal) X1 X2 (ix1 ρ) = trap X1 X2 ρ := by
  rw [Read.val_main_v20_apply]
  unfold trap
  refine congrArg₂ (· + ·) rfl (Finset.sum_congr rfl fun k _ => ?_)
  rw [Read.val_main_v19_apply, Read.val_main_v16_apply, Read.val_main_v15_apply, Read.val_main_cst_0_apply,
    Read.val_main_v14_apply, Read.val_main_v12_apply, Read.val_main_v13_apply, Read.val_main_v6_apply,
    Read.val_main_v5_apply, Read.val_main_v3_apply, Read.val_main_v1_apply, Read.val_main_v0_apply,
    Read.val_main_v4_apply, Read.val_main_v2_apply, idx_lo1, idx_hi1, idx_row1]
  rfl

/-! ## The result -/

/-- A rank-1 index set is its coordinate's range … -/
def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type} [AddCommMonoid M] {n : ℕ} (f : (⟨1, ![n]⟩ : Shape).Idx → M) :
    ∑ j, f j = ∑ a : Fin n, f (ix1 a) := by
  rw [← Equiv.sum_comp (idxEquiv1 (n := n)).symm f]
  rfl

/-- The reference's result (operation %24): the sum over the rows, from 0, of the squared
difference of the two rows' trapezoid sums, divided by the constant 8192. -/
theorem v24_apply (X0 X1 : FVec Ideal S8192x4096 .f32) (X2 : IVec S8192 32) (i : S_.Idx) :
    Read.val_main_v24 (F := Ideal) X0 X1 X2 i
      = FloatOps.hostDivf (F := Ideal)
          (Ideal.ofBits .f32 0x00000000#32
            + ∑ ρ : Fin 8192, (trap X0 X2 ρ - trap X1 X2 ρ) * (trap X0 X2 ρ - trap X1 X2 ρ))
          (Ideal.ofBits .f32 0x46000000#32) := by
  rw [Read.val_main_v24_apply, Read.val_main_v23_apply, Read.val_main_cst_4_apply,
    Read.val_main_cst_3_apply, sum_idx1]
  refine congrArg₂ _ (congrArg₂ (· + ·) rfl (Finset.sum_congr rfl fun ρ _ => ?_)) rfl
  rw [Read.val_main_v22_apply, Read.val_main_v21_apply, v18_apply, v20_apply]
  rfl

end Cert.RefRow
-- ==== Proof.RowBridge.lean ====
import proofs.«155158_j4355096838220_2_alg».proof.Proof.Payload
import proofs.«155158_j4355096838220_2_alg».proof.Proof.RowLaw
import proofs.«155158_j4355096838220_2_alg».proof.Proof.Mask
import proofs.«155158_j4355096838220_2_alg».proof.Proof.RefRow

/-!
# The one-row bridge

A row of the kernel's block holds the same 4096 samples of both arrays, and the same index
entry, as a row `ρ` of the reference's arrays.  The kernel sums, over ALL 4096 lanes, the
masked trapezoid of the difference `x1 - x2` with the next lane taken cyclically; the reference
forms the two masked trapezoid sums over the first 4095 lanes separately and subtracts them.
When all samples are finite reals and the row's index is at most 4095, the mask vanishes on the
last lane (the only lane whose cyclic neighbour is not its successor), and the row law
identifies the two.
-/

noncomputable section

open scoped BigOperators

namespace Cert.RowBridge

open Idealize.ShloMosaic Idealize.ShloMosaic.ValueIdx
open Cert.KernelIdeal.Pay (half nextLane nextLane_castSucc lane term rowSum)

/-- The word `0x3F000000` denotes the real number one half: sign 0, exponent field 126,
fraction 0, that is `2^23 · 2^(126 - 127 - 23)`. -/
theorem ofBits_half : Ideal.ofBits .f32 0x3F000000#32 = ((1 / 2 : ℝ) : EReal) := by
  simp [Ideal.ofBits, Ideal.ieee, -EReal.coe_mul]; norm_num

/-- the trapezoid rule's half is a real number -/
theorem half_real : ∃ r : ℝ, Cert.KernelIdeal.Pay.half = (r : EReal) := ⟨_, ofBits_half⟩

/-- **The one-row bridge.**  If row `r` of the block carries row `ρ` of the arrays (samples
and index entry), the samples are finite and the index is at most 4095, then the kernel's row
sum is the difference of the reference's two trapezoid sums of that row. -/
theorem row_bridge (X0 X1 : FVec Ideal Cert.ReferenceIdeal.S8192x4096 .f32)
    (X2 : IVec Cert.ReferenceIdeal.S8192 32)
    (hX0 : ∀ i, ∃ r : ℝ, X0 i = (r : EReal)) (hX1 : ∀ i, ∃ r : ℝ, X1 i = (r : EReal))
    (x1 x2 : FVec Ideal Cert.KernelIdeal.S256x4096 .f32) (x0 : IVec Cert.KernelIdeal.S256x1 32)
    (r : Fin 256) (ρ : Fin 8192)
    (h1 : ∀ k : Fin 4096, x1 (ix2 r k) = X0 (ix2 ρ k))
    (h2 : ∀ k : Fin 4096, x2 (ix2 r k) = X1 (ix2 ρ k))
    (h0 : x0 (ix2 r (0 : Fin 1)) = X2 (ix1 ρ)) (hle : (X2 (ix1 ρ)).toInt ≤ 4095) :
    Cert.KernelIdeal.Pay.rowSum x1 x2 x0 r
      = Cert.RefRow.trap X0 X2 ρ - Cert.RefRow.trap X1 X2 ρ := by
  -- the kernel's side: the block's entries are the arrays', and the sum starts from 0
  have lhs : rowSum x1 x2 x0 r
      = 0 + ∑ k : Fin (4095 + 1),
          (half * ((X0 (ix2 ρ k) - X1 (ix2 ρ k))
            + (X0 (ix2 ρ (nextLane k)) - X1 (ix2 ρ (nextLane k)))))
          * Cert.Mask.laneS (X2 (ix1 ρ)) k.val := by
    rw [zero_add]
    unfold rowSum term
    refine Finset.sum_congr rfl fun k _ => ?_
    rw [h1, h2, h1, h2, h0]
    rfl
  -- the reference's side: its initial value is 0 and its mask, the bit read as a natural
  -- number, is the kernel's, the bit widened and read as a signed integer
  have rhs : ∀ X : FVec Ideal Cert.ReferenceIdeal.S8192x4096 .f32, Cert.RefRow.trap X X2 ρ
      = 0 + ∑ k : Fin 4095, (half * (X (ix2 ρ k.castSucc) + X (ix2 ρ k.succ)))
          * Cert.Mask.laneS (X2 (ix1 ρ)) k.castSucc.val := by
    intro X
    unfold Cert.RefRow.trap
    rw [Ideal.ofBits_zero_f32]
    refine congrArg (0 + ·) (Finset.sum_congr rfl fun k _ => ?_)
    rw [Cert.Mask.laneS_eq_laneU]
    rfl
  rw [lhs, rhs X0, rhs X1]
  exact Cert.RowLaw.row_law 4095 half half_real
    (fun k : Fin (4095 + 1) => X0 (ix2 ρ k)) (fun k : Fin (4095 + 1) => X1 (ix2 ρ k))
    (fun _ => hX0 _) (fun _ => hX1 _)
    (fun k : Fin (4095 + 1) => Cert.Mask.laneS (X2 (ix1 ρ)) k.val)
    (fun _ => Cert.Mask.laneS_zero_or_one _ _)
    (Cert.Mask.laneS_last _ hle)
    nextLane nextLane_castSucc

end Cert.RowBridge
-- ==== Proof.Bridge.lean ====
/-
  The kernel's result is the reference's result.

  With `p`, `q` the two sample arrays and `n` the fracture indices, the reference returns
  `(0 + Σ_ρ (T p ρ - T q ρ)²) / 8192` over the 8192 rows, where `T x ρ = 0 + Σ_{k < 4095} ½ (x ρ k + x ρ (k+1)) · [k < n ρ]`
  is a masked trapezoid sum over a row's first 4095 lanes. The kernel returns `(A(0,0) + A(8,0)) / 8192` of its output
  array `A`, whose two blocks hold the sums of the contributions of the grid points 0 … 15 and 16 … 31: point `s`
  contributes `Σ_{r < 256} (row sum of row 256 s + r)²`, the row sum taken of the difference `p - q` over all 4096
  lanes with a cyclic neighbour. Row by row the two row sums agree when the samples are finite and no fracture index
  exceeds 4095 (the row law: the extra lane is masked off, and the trapezoid rule is linear over the reals); the
  points' rows are the 8192 rows, block after block; and the division is by the same number.
-/
import proofs.«155158_j4355096838220_2_alg».proof.Proof.Final
import proofs.«155158_j4355096838220_2_alg».proof.Proof.Partial
import proofs.«155158_j4355096838220_2_alg».proof.Proof.Blocks
import proofs.«155158_j4355096838220_2_alg».proof.Proof.RowBridge
import proofs.«155158_j4355096838220_2_alg».proof.Proof.Gen.ReferenceIdeal.Read

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The host's last operations at the result's one index: entry (0, 0) plus entry (8, 0) of the array, divided by the
    literal 8192. -/
theorem tail_apply (A : S16x128.Idx → Ideal .f32) (i : S_.Idx) :
    Out.tail (F := Ideal) A i
      = FloatOps.hostDivf (F := Ideal) (A (ix2 (0 : Fin 16) (0 : Fin 128)) + A (ix2 (8 : Fin 16) (0 : Fin 128)))
          (Ideal.ofBits .f32 0x46000000#32) := by
  unfold Out.tail
  show FloatOps.hostDivf (F := Ideal) (_ + _) _ = _
  refine congrArg₂ (FloatOps.hostDivf (F := Ideal)) (congrArg₂ (· + ·) ?_ ?_) rfl
  · exact (shapeCast_apply _ _ i (ix2 (0 : Fin 1) (0 : Fin 1)) (by
        have h1 : (S1x1.rowMajor (ix2 (0 : Fin 1) (0 : Fin 1))).val < 1 :=
          lt_of_lt_of_eq (S1x1.rowMajor _).isLt (by decide)
        have h2 : (S_.rowMajor i).val < 1 := lt_of_lt_of_eq (S_.rowMajor i).isLt (by decide)
        exact (Nat.lt_one_iff.mp h1).trans (Nat.lt_one_iff.mp h2).symm)).trans
      (extractStridedSlice_apply _ A _ _ (ix2 (0 : Fin 16) (0 : Fin 128)) (fun a => by
        match a with
        | ⟨0, _⟩ => rfl
        | ⟨1, _⟩ => rfl))
  · exact (shapeCast_apply _ _ i (ix2 (0 : Fin 1) (0 : Fin 1)) (by
        have h1 : (S1x1.rowMajor (ix2 (0 : Fin 1) (0 : Fin 1))).val < 1 :=
          lt_of_lt_of_eq (S1x1.rowMajor _).isLt (by decide)
        have h2 : (S_.rowMajor i).val < 1 := lt_of_lt_of_eq (S_.rowMajor i).isLt (by decide)
        exact (Nat.lt_one_iff.mp h1).trans (Nat.lt_one_iff.mp h2).symm)).trans
      (extractStridedSlice_apply _ A _ _ (ix2 (8 : Fin 16) (0 : Fin 128)) (fun a => by
        match a with
        | ⟨0, _⟩ => rfl
        | ⟨1, _⟩ => rfl))

/-- The output array at row `a`, lane `b`: the chain after the last point of row `a`'s block, at the row's place in it. -/
theorem res_ix2 (c : Dev nD) (a : Fin 16) (b : Fin 128) :
    Out.res m c (ix2 a b) = Acc.accN m c (16 * (a.val / 8) + 15) (ix2 ⟨a.val % 8, Nat.mod_lt _ (by decide)⟩ b) := rfl

/-- Entry (0, 0) of the output array: the contributions of the points 0 … 15. -/
theorem res_lo (c : Dev nD) :
    Out.res m c (ix2 (0 : Fin 16) (0 : Fin 128)) = ∑ s ∈ Finset.range 16, Part.contrib m c (0 + s) := by
  have h15 : 15 < cfg0.N := by rw [show cfg0.N = 32 from N_0]; decide
  rw [res_ix2, show 16 * ((0 : Fin 16).val / 8) + 15 = 15 by decide, Acc.accN_of_lt m c 15 h15, Part.acc_apply]

/-- Entry (8, 0) of the output array: the contributions of the points 16 … 31. -/
theorem res_hi (c : Dev nD) :
    Out.res m c (ix2 (8 : Fin 16) (0 : Fin 128)) = ∑ s ∈ Finset.range 16, Part.contrib m c (16 + s) := by
  have h31 : 31 < cfg0.N := by rw [show cfg0.N = 32 from N_0]; decide
  rw [res_ix2, show 16 * ((8 : Fin 16).val / 8) + 15 = 31 by decide, Acc.accN_of_lt m c 31 h31, Part.acc_apply]

/-- One row's squared difference of trapezoid sums, as the reference forms it. -/
def sq (X0 X1 : FVec Ideal Cert.ReferenceIdeal.S8192x4096 .f32) (X2 : IVec Cert.ReferenceIdeal.S8192 32) (ρ : Fin 8192) : EReal :=
  (Cert.RefRow.trap X0 X2 ρ - Cert.RefRow.trap X1 X2 ρ) * (Cert.RefRow.trap X0 X2 ρ - Cert.RefRow.trap X1 X2 ρ)

/-- The 32 points' contributions are the 8192 rows' squares: block `s` is the rows `256 s … 256 s + 255`, and each row's
    sum is the reference's difference of trapezoid sums (finite samples, fracture indices at most 4095). -/
theorem total (c : Dev nD)
    (hX0 : ∀ i, ∃ r : ℝ, m ((c : Thread nD τ).loc main_arg0) i = (r : EReal))
    (hX1 : ∀ i, ∃ r : ℝ, m ((c : Thread nD τ).loc main_arg1) i = (r : EReal))
    (hle : ∀ i, (m ((c : Thread nD τ).loc main_arg2) i).toInt ≤ 4095) :
    (∑ s ∈ Finset.range 16, Part.contrib m c (0 + s)) + (∑ s ∈ Finset.range 16, Part.contrib m c (16 + s))
      = ∑ ρ : Fin 8192, sq (m ((c : Thread nD τ).loc main_arg0)) (m ((c : Thread nD τ).loc main_arg1))
          (m ((c : Thread nD τ).loc main_arg2)) ρ := by
  simp only [Nat.zero_add]
  rw [← Finset.sum_range_add (fun s => Part.contrib m c s) 16 16, show 16 + 16 = 32 from rfl, Finset.sum_range,
    Cert.RowLaw.sum_blocks 32 256 8192 (by norm_num)]
  refine Finset.sum_congr rfl fun s _ => ?_
  have hs : s.val < cfg0.N := by rw [show cfg0.N = 32 from N_0]; exact s.isLt
  rw [Part.contrib_of_lt m c s.val hs]
  unfold Pay.blockSum
  refine Finset.sum_congr rfl fun r _ => ?_
  unfold sq
  rw [Cert.RowBridge.row_bridge (m ((c : Thread nD τ).loc main_arg0)) (m ((c : Thread nD τ).loc main_arg1))
    (m ((c : Thread nD τ).loc main_arg2)) hX0 hX1 _ _ _ r ⟨256 * s.val + r.val, Blk.row_lt ⟨s.val, hs⟩ r⟩
    (fun k => Blk.iblk1_apply m c ⟨s.val, hs⟩ r k) (fun k => Blk.iblk2_apply m c ⟨s.val, hs⟩ r k)
    (Blk.iblk0_apply m c ⟨s.val, hs⟩ r) (hle _)]

/-- THE BRIDGE: under finite samples and fracture indices at most 4095, what the kernel returns is the reference's
    result of the same three arrays. -/
theorem result_eq (c : Dev nD)
    (hX0 : ∀ i, ∃ r : ℝ, m ((c : Thread nD τ).loc main_arg0) i = (r : EReal))
    (hX1 : ∀ i, ∃ r : ℝ, m ((c : Thread nD τ).loc main_arg1) i = (r : EReal))
    (hle : ∀ i, (m ((c : Thread nD τ).loc main_arg2) i).toInt ≤ 4095) :
    Out.tail (Out.res m c)
      = Cert.ReferenceIdeal.Read.val_main_v24 (F := Ideal) (m ((c : Thread nD τ).loc main_arg0))
          (m ((c : Thread nD τ).loc main_arg1)) (m ((c : Thread nD τ).loc main_arg2)) := by
  funext i
  rw [tail_apply, res_lo, res_hi, total m c hX0 hX1 hle, Cert.RefRow.v24_apply, Ideal.ofBits_zero_f32, zero_add]
  rfl

end Cert.Bridge

end
-- ==== Proof.lean ====
/-
  The strain-energy loss: a Pallas kernel against its jnp reference, equal as extended reals.

  For sample arrays `p`, `q` (8192 rows of 4096 finite samples) and one fracture index `n ρ` per row, the reference
  integrates each row of `p` and of `q` by the trapezoid rule with unit spacing over the segments `k < n ρ` among the
  first 4095, squares the difference of the two integrals, and returns the mean over the rows. The kernel walks the
  rows in 32 blocks of 256, 16 blocks per core half: it integrates the difference `p - q` once, taking each lane's
  right neighbour by a cyclic rotation of all 4096 lanes and masking every lane by `[k < n ρ]`, accumulates the squared
  row integrals of the 16 blocks of a half into that half's output block, and the host adds the two halves and
  divides by 8192.

  The two agree exactly when the cyclic neighbour of the last lane is masked off, that is when no fracture index
  exceeds 4095 — the index of the last sample, the largest value for which the reference's own formula
  `Σ_{j < n} ½ (y j + y (j+1))` reads inside the row — and, the trapezoid rule being linear only over the reals, when
  the samples are finite. Those two facts are the precondition.

  The frames of the two kernels and the kernel's run are the generated ones; the reference's run and its
  operations read at an index are generated; written by hand are the kernel's value (the body's payload at an index,
  the accumulation over the grid, the output array, the host's last operations), the row law, the decoding of the
  precondition, and the bridge between the two results.
-/
import proofs.«155158_j4355096838220_2_alg».proof.Defs
import proofs.«155158_j4355096838220_2_alg».proof.Proof.Gen.Kernel
import proofs.«155158_j4355096838220_2_alg».proof.Proof.Gen.Kernel.Skeleton
import proofs.«155158_j4355096838220_2_alg».proof.Proof.Gen.Kernel.Launch
import proofs.«155158_j4355096838220_2_alg».proof.Proof.Gen.Kernel.Points
import proofs.«155158_j4355096838220_2_alg».proof.Proof.Gen.Kernel.Frame
import proofs.«155158_j4355096838220_2_alg».proof.Proof.Gen.KernelIdeal
import proofs.«155158_j4355096838220_2_alg».proof.Proof.Gen.KernelIdeal.Skeleton
import proofs.«155158_j4355096838220_2_alg».proof.Proof.Gen.KernelIdeal.Launch
import proofs.«155158_j4355096838220_2_alg».proof.Proof.Gen.KernelIdeal.Points
import proofs.«155158_j4355096838220_2_alg».proof.Proof.Gen.KernelIdeal.Frame
import proofs.«155158_j4355096838220_2_alg».proof.Proof.Gen.ReferenceIdeal
import proofs.«155158_j4355096838220_2_alg».proof.Proof.Gen.Pre_finite_inputs
import proofs.«155158_j4355096838220_2_alg».proof.Proof.Gen.ReferenceIdeal.Run
import proofs.«155158_j4355096838220_2_alg».proof.Proof.Gen.ReferenceIdeal.Read
import proofs.«155158_j4355096838220_2_alg».proof.Proof.PreFacts
import proofs.«155158_j4355096838220_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the three arguments the kernel's result buffer ends at the host's last operations of
    its output array, the reference's at its operations' composed term; under the precondition the two are one
    value (the bridge). -/
theorem algebraic : Cert.algebraic_KernelIdeal_ReferenceIdeal := by
  intro m ρ m' ρ' hpre hagree
  refine ⟨fun c => Cert.KernelIdeal.Out.tail (Cert.KernelIdeal.Out.res m c), Cert.KernelIdeal.Out.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hX0, hX1, hle⟩ := Cert.PreFacts.decode _ _ _ (hpre c)
  rw [(hagree c).1, (hagree c).2.1, (hagree c).2.2, Cert.ReferenceIdeal.Read.val_main_v24_eq]
  exact (Cert.Bridge.result_eq m c hX0 hX1 hle).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
